-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x128 : Shape := ⟨2, ![600000, 128]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x600000 32) (main_arg2 : FVec F S600000x128 .f32) (main_arg3 : FVec F S256x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S600000x128 : Shape := ⟨2, ![600000, 128]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S2000x128 : Shape := ⟨2, ![2000, 128]⟩
abbrev S2000x256 : Shape := ⟨2, ![2000, 256]⟩
abbrev S1x128 : Shape := ⟨2, ![1, 128]⟩
abbrev S2000 : Shape := ⟨1, ![2000]⟩
abbrev S2000x1 : Shape := ⟨2, ![2000, 1]⟩

abbrev nBuf : Space → Nat
  | .hbm => 18
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S_, .f32⟩
  | .hbm, ⟨14, _⟩ => ⟨S50000x128, .f32⟩
  | .hbm, ⟨15, _⟩ => ⟨S600000x1, .i32⟩
  | .hbm, ⟨16, _⟩ => ⟨S50000x128, .f32⟩
  | .hbm, ⟨17, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S2000x128, .f32⟩
  | .local _ .vmem, ⟨13, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x600000_S1x600000_1_0 : S2x600000.Slices ![1, 0] S1x600000
  shapeCasts_S1x600000_S600000 : S1x600000.ShapeCasts S600000
  bcast_S_S50000x128 : S_.BroadcastsInDim S50000x128 (![] : Fin 0 → Fin S50000x128.rank)
  bcast_S600000_S600000x1_0 : S600000.BroadcastsInDim S600000x1 (![0] : Fin 1 → Fin S600000x1.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x256_d1 : Shape.Concatenates [S2000x128, S2000x128] S2000x256 1
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  reduces_S2000x128_S2000 : S2000x128.Reduces [1] S2000
  shapeCasts_S2000_S2000x1 : S2000.ShapeCasts S2000x1
  broadcasts_S2000x1_S2000x128 : S2000x1.Broadcasts S2000x128
  scatter_S50000x128_S600000x1_S600000x128_1_0_0_1_wf : ScatterDims.WF S50000x128 S600000x1 S600000x128 [1] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x128 : Shape := ⟨2, ![600000, 128]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x256 : Shape := ⟨2, ![50000, 256]⟩
abbrev S1x128 : Shape := ⟨2, ![1, 128]⟩
abbrev S50000 : Shape := ⟨1, ![50000]⟩
abbrev S50000x1 : Shape := ⟨2, ![50000, 1]⟩

abbrev nBuf : Space → Nat
  | .hbm => 65
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S_, .f32⟩
  | .hbm, ⟨14, _⟩ => ⟨S50000x128, .f32⟩
  | .hbm, ⟨15, _⟩ => ⟨S600000x1, .i32⟩
  | .hbm, ⟨16, _⟩ => ⟨S50000x128, .f32⟩
  | .hbm, ⟨17, _⟩ => ⟨S50000x256, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000, .f32⟩
  | .hbm, ⟨38, _⟩ => ⟨S50000x1, .f32⟩
  | .hbm, ⟨39, _⟩ => ⟨S_, .f32⟩
  | .hbm, ⟨40, _⟩ => ⟨S50000x1, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000, .f32⟩
  | .hbm, ⟨47, _⟩ => ⟨S50000x1, .f32⟩
  | .hbm, ⟨48, _⟩ => ⟨S_, .f32⟩
  | .hbm, ⟨49, _⟩ => ⟨S50000x1, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x1, .f32⟩
  | .hbm, ⟨55, _⟩ => ⟨S50000x1, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call1_cst : Ref sig .tc := ⟨.hbm, 29, rfl⟩
abbrev main_call1_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  slices_S2x600000_S1x600000_1_0 : S2x600000.Slices ![1, 0] S1x600000
  shapeCasts_S1x600000_S600000 : S1x600000.ShapeCasts S600000
  bcast_S_S50000x128 : S_.BroadcastsInDim S50000x128 (![] : Fin 0 → Fin S50000x128.rank)
  bcast_S600000_S600000x1_0 : S600000.BroadcastsInDim S600000x1 (![0] : Fin 1 → Fin S600000x1.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RowNet.lean ====
/-
  The mathematics both programs compute, one ROW of the node table at a time.

  A node's output row depends only on that node's own feature row `x`, on the row `a` of edge features summed onto it, and
  on the weights. The two rows are joined end to end (256 entries); three affine layers follow, `h ↦ h · W + b` column by
  column, the first two clipped below at zero; the 128 entries `v` of the last layer are then normalised:
  with `μ = (Σ v) / 128` and `d = v - μ`, the output is `((d · rsqrt ((Σ d · d) / 128 + ε)) · γ) + β`.

  Everything is over the extended reals, where sums may be taken in any order; the three float literals (zero, 128 and ε)
  are kept as the words both programs print, so they are never evaluated.
-/
import Idealize.ShloMosaic.PureOps.Ideal
import Idealize.ShloMosaic.PureOps.Ideal.Laws

noncomputable section

namespace Cert.NodeUpdate

open Idealize.ShloMosaic

/-- The zero both programs clip at. -/
abbrev zeroLit : EReal := Ideal.ofBits .f32 0x00000000#32
/-- The row length, 128, as both programs divide by it. -/
abbrev widthLit : EReal := Ideal.ofBits .f32 0x43000000#32
/-- The ε added to the variance. -/
abbrev epsLit : EReal := Ideal.ofBits .f32 0x3727C5AC#32

/-- A node's own row followed by its summed edge row: entries 0–127 from `x`, entries 128–255 from `a`. -/
def joined (x a : Fin 128 → EReal) (k : Fin 256) : EReal :=
  if h : k.val < 128 then x ⟨k.val, h⟩ else a ⟨k.val - 128, by have := k.isLt; omega⟩

/-- One affine layer at column `j`: the row times column `j` of the weights, plus the bias there. -/
def affine {K : Nat} (h : Fin K → EReal) (W : Fin K → Fin 128 → EReal) (b : Fin 128 → EReal) (j : Fin 128) : EReal :=
  (∑ k : Fin K, h k * W k j) + b j

/-- The first hidden row: the joined row through the first layer, clipped below at zero. -/
def hidden1 (x a : Fin 128 → EReal) (W1 : Fin 256 → Fin 128 → EReal) (b1 : Fin 128 → EReal) (j : Fin 128) : EReal :=
  max (affine (joined x a) W1 b1 j) zeroLit

/-- The second hidden row. -/
def hidden2 (x a : Fin 128 → EReal) (W1 : Fin 256 → Fin 128 → EReal) (b1 : Fin 128 → EReal)
    (W2 : Fin 128 → Fin 128 → EReal) (b2 : Fin 128 → EReal) (j : Fin 128) : EReal :=
  max (affine (hidden1 x a W1 b1) W2 b2 j) zeroLit

/-- The row the normalisation receives: the third layer, not clipped. -/
def lastLayer (x a : Fin 128 → EReal) (W1 : Fin 256 → Fin 128 → EReal) (b1 : Fin 128 → EReal)
    (W2 : Fin 128 → Fin 128 → EReal) (b2 : Fin 128 → EReal) (W3 : Fin 128 → Fin 128 → EReal) (b3 : Fin 128 → EReal)
    (j : Fin 128) : EReal :=
  affine (hidden2 x a W1 b1 W2 b2) W3 b3 j

/-- The mean of a row of 128 entries. -/
def rowMean (v : Fin 128 → EReal) : EReal := Ideal.div (∑ j : Fin 128, v j) widthLit

/-- A row with its mean taken off. -/
def centred (v : Fin 128 → EReal) (j : Fin 128) : EReal := v j - rowMean v

/-- The reciprocal standard deviation of a row: `rsqrt` of the mean of the centred squares plus ε. -/
def invDev (v : Fin 128 → EReal) : EReal :=
  Ideal.rsqrt (rowMean (fun k => centred v k * centred v k) + epsLit)

/-- The normalised row, scaled by `γ` and shifted by `β`, in the order both programs multiply and add. -/
def normalised (v g b : Fin 128 → EReal) (j : Fin 128) : EReal :=
  centred v j * invDev v * g j + b j

/-- A node's output row. -/
def rowOut (x a : Fin 128 → EReal) (W1 : Fin 256 → Fin 128 → EReal) (b1 : Fin 128 → EReal)
    (W2 : Fin 128 → Fin 128 → EReal) (b2 : Fin 128 → EReal) (W3 : Fin 128 → Fin 128 → EReal) (b3 : Fin 128 → EReal)
    (g b : Fin 128 → EReal) (j : Fin 128) : EReal :=
  normalised (lastLayer x a W1 b1 W2 b2 W3 b3) g b j

/-- The joined row below entry 128 is the node's own row. -/
theorem joined_lt (x a : Fin 128 → EReal) (k : Fin 256) (h : k.val < 128) : joined x a k = x ⟨k.val, h⟩ := by
  unfold joined; rw [dif_pos h]

/-- From entry 128 on it is the summed edge row. -/
theorem joined_ge (x a : Fin 128 → EReal) (k : Fin 256) (h : 128 ≤ k.val) :
    joined x a k = a ⟨k.val - 128, by have := k.isLt; omega⟩ := by
  unfold joined; rw [dif_neg (Nat.not_lt.2 h)]

end Cert.NodeUpdate

end
-- ==== Proof.Table.lean ====
/-
  From one row to the whole node table.

  A table with 128 columns is read a row at a time (`rowOf`), a weight matrix as a function of its two coordinates
  (`matOf`), a bias or scale vector as a function of its coordinate (`vecOf`). `table` is then the node table both
  programs end with: row `r` of the result is `rowOut` of row `r` of the node features and row `r` of the summed edge
  features. The number of rows is a parameter because the same function describes the whole table (50000 rows) and any
  block of consecutive rows of it (2000 rows): a block of the result is `table` of the same blocks of the two inputs.
-/
import proofs.«175431_j2070174236986_1_alg».proof.Proof.RowNet
import Idealize.ShloMosaic.Lib.ValueIdx

noncomputable section

namespace Cert.NodeUpdate

open Idealize.ShloMosaic Idealize.ShloMosaic.ValueIdx

/-- Row `r` of a table with 128 columns. -/
def rowOf {n : Nat} (A : (⟨2, ![n, 128]⟩ : Shape).Idx → EReal) (r : Fin n) : Fin 128 → EReal := fun k => A (ix2 r k)

/-- A weight matrix with 128 columns by its two coordinates. -/
def matOf {K : Nat} (W : (⟨2, ![K, 128]⟩ : Shape).Idx → EReal) : Fin K → Fin 128 → EReal := fun k j => W (ix2 k j)

/-- A vector of 128 entries by its coordinate. -/
def vecOf (b : (⟨1, ![128]⟩ : Shape).Idx → EReal) : Fin 128 → EReal := fun j => b (ix1 j)

/-- The result table: entry `(r, j)` is entry `j` of `rowOut` of rows `r` of the two input tables. -/
def table {n : Nat} (X A : (⟨2, ![n, 128]⟩ : Shape).Idx → EReal) (W1 : (⟨2, ![256, 128]⟩ : Shape).Idx → EReal)
    (b1 : (⟨1, ![128]⟩ : Shape).Idx → EReal) (W2 : (⟨2, ![128, 128]⟩ : Shape).Idx → EReal)
    (b2 : (⟨1, ![128]⟩ : Shape).Idx → EReal) (W3 : (⟨2, ![128, 128]⟩ : Shape).Idx → EReal)
    (b3 g b : (⟨1, ![128]⟩ : Shape).Idx → EReal) : (⟨2, ![n, 128]⟩ : Shape).Idx → EReal :=
  fun i => rowOut (rowOf X (i 0)) (rowOf A (i 0)) (matOf W1) (vecOf b1) (matOf W2) (vecOf b2) (matOf W3) (vecOf b3)
    (vecOf g) (vecOf b) (i 1)

/-- The table at an index given by its coordinates. -/
theorem table_ix2 {n : Nat} (X A : (⟨2, ![n, 128]⟩ : Shape).Idx → EReal) (W1 : (⟨2, ![256, 128]⟩ : Shape).Idx → EReal)
    (b1 : (⟨1, ![128]⟩ : Shape).Idx → EReal) (W2 : (⟨2, ![128, 128]⟩ : Shape).Idx → EReal)
    (b2 : (⟨1, ![128]⟩ : Shape).Idx → EReal) (W3 : (⟨2, ![128, 128]⟩ : Shape).Idx → EReal)
    (b3 g b : (⟨1, ![128]⟩ : Shape).Idx → EReal) (r : Fin n) (j : Fin 128) :
    table X A W1 b1 W2 b2 W3 b3 g b (ix2 r j)
      = rowOut (rowOf X r) (rowOf A r) (matOf W1) (vecOf b1) (matOf W2) (vecOf b2) (matOf W3) (vecOf b3) (vecOf g) (vecOf b) j :=
  rfl

end Cert.NodeUpdate

end
-- ==== Proof.KerOps.lean ====
/-
  The kernel body's operations that are not entry-by-entry, each read at row `r` and column `j` of a block of 2000 rows.

  Joining two blocks along the columns gives the joined row; a bias of 128 entries spread over the rows is its entry at
  the column; a matrix product into the zero accumulator is the sum over the contraction index of left entry `(r, k)`
  times right entry `(k, j)`; a sum along the columns is the sum of the row; a column of one entry per row, spread
  over the columns, is that row's entry. The contraction index of a product has one axis, so its sum is a sum over the 256 (or 128)
  entries of a row.
-/
import proofs.«175431_j2070174236986_1_alg».proof.Proof.Gen.KernelIdeal
import proofs.«175431_j2070174236986_1_alg».proof.Proof.Table
import Idealize.ShloMosaic.Lib.Pipeline.Value
import Idealize.ShloMosaic.Lib.ValueIdx
import Idealize.ShloMosaic.PureOps.Ideal.Laws

noncomputable section

namespace Cert.NodeUpdate.Ker

open Cert.KernelIdeal Cert.KernelIdeal.Gen Idealize.ShloMosaic Idealize.ShloMosaic.ValueIdx Cert.NodeUpdate

/-- Two blocks joined along the columns, at row `r`: the joined row of the two rows. -/
theorem cat_at (u v : Vec Ideal S2000x128 .f32) (r : Fin 2000) (k : Fin 256) :
    concatenate S2000x256 1 [⟨S2000x128, u⟩, ⟨S2000x128, shapeCast S2000x128 v shapeCasts_S2000x128_S2000x128⟩]
        concatenates_S2000x128_S2000x128_S2000x256_d1 (ix2 r k)
      = joined (rowOf u r) (rowOf v r) k := by
  rw [shapeCast_self]
  by_cases h : k.val < 128
  · rw [joined_lt _ _ _ h]
    exact concatenate_pair_apply_left (1 : Fin 2) u v concatenates_S2000x128_S2000x128_S2000x256_d1 (ix2 r k) rfl
      (ix2 r ⟨k.val, h⟩) (fun b => match b with | ⟨0, _⟩ => rfl | ⟨1, _⟩ => rfl)
  · have h' : 128 ≤ k.val := Nat.le_of_not_lt h
    rw [joined_ge _ _ _ h']
    exact concatenate_pair_apply_right (1 : Fin 2) u v concatenates_S2000x128_S2000x128_S2000x256_d1 (ix2 r k) rfl rfl
      (ix2 r ⟨k.val - 128, by have := k.isLt; omega⟩)
      (fun b hb => match b, hb with | ⟨0, _⟩, _ => rfl | ⟨1, _⟩, hb => absurd rfl hb)
      (by show (k.val - 128) + 128 = k.val; omega)

/-- A vector of 128 entries laid as one row and spread over the 2000 rows: its entry at the column. -/
theorem bias_at (b : Vec Ideal S128 .f32) (r : Fin 2000) (j : Fin 128) :
    broadcastTo S2000x128 (shapeCast S1x128 b shapeCasts_S128_S1x128) broadcasts_S1x128_S2000x128 (ix2 r j) = vecOf b j := by
  refine (broadcastTo_apply _ _ (ix2 r j) (ix2 (0 : Fin 1) j) (fun a => match a with
    | ⟨0, _⟩ => by show (0 : Nat) = (if (1 : Nat) = 1 then 0 else r.val); rw [if_pos rfl]
    | ⟨1, _⟩ => by show j.val = (if (128 : Nat) = 1 then 0 else j.val); rw [if_neg (by decide)])).trans ?_
  exact shapeCast_apply b shapeCasts_S128_S1x128 (ix2 (0 : Fin 1) j) (ix1 j)
    (by rw [Shape.rowMajor_val_one, Shape.rowMajor_val_two]; show j.val = 0 * 128 + j.val; omega)

/-- A column of one entry per row, spread over the 128 columns: the row's entry. -/
theorem col_at (u : FVec Ideal S2000x1 .f32) (r : Fin 2000) (j : Fin 128) :
    broadcastTo S2000x128 u broadcasts_S2000x1_S2000x128 (ix2 r j) = u (ix2 r (0 : Fin 1)) :=
  broadcastTo_apply u broadcasts_S2000x1_S2000x128 (ix2 r j) (ix2 r (0 : Fin 1)) (fun a => match a with
    | ⟨0, _⟩ => by show r.val = (if (2000 : Nat) = 1 then 0 else r.val); rw [if_neg (by decide)]
    | ⟨1, _⟩ => by show (0 : Nat) = (if (1 : Nat) = 1 then 0 else j.val); rw [if_pos rfl])

/-- One entry per row, kept as a column: the same entry. -/
theorem keep_at (s : FVec Ideal S2000 .f32) (r : Fin 2000) :
    shapeCast S2000x1 s shapeCasts_S2000_S2000x1 (ix2 r (0 : Fin 1)) = s (ix1 r) :=
  shapeCast_apply s shapeCasts_S2000_S2000x1 (ix2 r (0 : Fin 1)) (ix1 r)
    (by rw [Shape.rowMajor_val_one, Shape.rowMajor_val_two]; show r.val = r.val * 1 + 0; omega)

/-- The sum along the columns, at row `r`, is the sum of the row (the accumulator word is the neutral zero). -/
theorem rowsum_at (v : FVec Ideal S2000x128 .f32) (r : Fin 2000) :
    multiReduction .add [1] S2000 v 0x00000000#32 reduces_S2000x128_S2000 (.inl rfl) rfl (ix1 r)
      = ∑ j : Fin 128, v (ix2 r j) := by
  refine (Ideal.multiReduction_add_single v 0x00000000#32 reduces_S2000x128_S2000 (.inl rfl) rfl (ix1 r)).trans ?_
  exact Finset.sum_congr rfl fun k _ => congrArg v (funext fun a => Fin.ext (by
    match a with | ⟨0, _⟩ => rfl | ⟨1, _⟩ => rfl))

theorem lhs256_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl

theorem rhs256_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

/-- The first matrix product (256 contracted entries) into the zero accumulator, at `(r, j)`. -/
theorem dot256_at (l : FVec Ideal S2000x256 .bf16) (w : FVec Ideal S256x128 .bf16) (r : Fin 2000) (j : Fin 128) :
    matmul dot_S2000x256_S256x128_S2000x128_1_0_0_1_n_n none l w (constant (F := Ideal) S2000x128 .f32 0x00000000#32) (ix2 r j)
      = ∑ k : Fin 256, l (ix2 r k) * w (ix2 k j) := by
  simp only [matmul]
  rw [Ideal.matmul_constant_zero_apply,
    ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 r j)
      ((ValueIdx.contrEquiv1 dot_S2000x256_S256x128_S2000x128_1_0_0_1_n_n 256 rfl rfl).symm k) = ix2 r k :=
    funext fun a => Fin.ext (by
      match a with
      | ⟨0, _⟩ => exact lhs256_0 _ _
      | ⟨1, _⟩ => exact (dot_S2000x256_S256x128_S2000x128_1_0_0_1_n_n.lhsIdx_val_of_single rfl _ _).trans hk)
  have er : dot_S2000x256_S256x128_S2000x128_1_0_0_1_n_n.rhsIdx (ix2 r j)
      ((ValueIdx.contrEquiv1 dot_S2000x256_S256x128_S2000x128_1_0_0_1_n_n 256 rfl rfl).symm k) = ix2 k j :=
    funext fun a => Fin.ext (by
      match a with
      | ⟨0, _⟩ => exact (dot_S2000x256_S256x128_S2000x128_1_0_0_1_n_n.rhsIdx_val_of_single rfl _ _).trans hk
      | ⟨1, _⟩ => exact rhs256_1 _ _)
  rw [el, er]

theorem lhs128_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem rhs128_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The second and third matrix products (128 contracted entries) into the zero accumulator, at `(r, j)`. -/
theorem dot128_at (l : FVec Ideal S2000x128 .bf16) (w : FVec Ideal S128x128 .bf16) (r : Fin 2000) (j : Fin 128) :
    matmul dot_S2000x128_S128x128_S2000x128_1_0_0_1_n_n none l w (constant (F := Ideal) S2000x128 .f32 0x00000000#32) (ix2 r j)
      = ∑ k : Fin 128, l (ix2 r k) * w (ix2 k j) := by
  simp only [matmul]
  rw [Ideal.matmul_constant_zero_apply,
    ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r j)
      ((ValueIdx.contrEquiv1 dot_S2000x128_S128x128_S2000x128_1_0_0_1_n_n 128 rfl rfl).symm k) = ix2 r k :=
    funext fun a => Fin.ext (by
      match a with
      | ⟨0, _⟩ => exact lhs128_0 _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 r j)
      ((ValueIdx.contrEquiv1 dot_S2000x128_S128x128_S2000x128_1_0_0_1_n_n 128 rfl rfl).symm k) = ix2 k j :=
    funext fun a => Fin.ext (by
      match a with
      | ⟨0, _⟩ => exact (dot_S2000x128_S128x128_S2000x128_1_0_0_1_n_n.rhsIdx_val_of_single rfl _ _).trans hk
      | ⟨1, _⟩ => exact rhs128_1 _ _)
  rw [el, er]

end Cert.NodeUpdate.Ker

end
-- ==== Proof.KerLayers.lean ====
/-
  The kernel body on one block of 2000 rows, at row `r` and column `j` of the block.

  The body joins the node block and the summed edge block, runs the three layers (its changes of float format are the
  identity on the extended reals, its matrix products accumulate into zero), takes each row's mean off, and stores the
  difference times the reciprocal deviation, times γ, plus β. The three layer blocks are named here as the very terms the
  body's payload holds; read entry by entry they are the layers of `Cert.NodeUpdate` on row `r` of the two input blocks,
  so the block the body leaves is `Cert.NodeUpdate.table` of the two input blocks and the weights.
-/
import proofs.«175431_j2070174236986_1_alg».proof.Proof.Gen.KernelIdeal.Skeleton
import proofs.«175431_j2070174236986_1_alg».proof.Proof.Gen.KernelIdeal.Value
import proofs.«175431_j2070174236986_1_alg».proof.Proof.KerOps

noncomputable section

namespace Cert.NodeUpdate.Ker

open Cert.KernelIdeal Cert.KernelIdeal.Gen Idealize.ShloMosaic Idealize.ShloMosaic.ValueIdx Cert.NodeUpdate

variable (P0 P1 : Vec Ideal S2000x128 .f32) (P2 : Vec Ideal S256x128 .f32) (P3 : Vec Ideal S128 .f32)
  (P4 : Vec Ideal S128x128 .f32) (P5 : Vec Ideal S128 .f32) (P6 : Vec Ideal S128x128 .f32) (P7 : Vec Ideal S128 .f32)

/-- The first hidden block, as the body computes it. -/
def blk1 : FVec Ideal S2000x128 .f32 :=
  maximumf (addf (matmul dot_S2000x256_S256x128_S2000x128_1_0_0_1_n_n none (truncf .bf16 (concatenate S2000x256 1 [⟨S2000x128, P0⟩, ⟨S2000x128, shapeCast S2000x128 P1 shapeCasts_S2000x128_S2000x128⟩] concatenates_S2000x128_S2000x128_S2000x256_d1) bitsLt_bf16_f32) (truncf .bf16 P2 bitsLt_bf16_f32) (constant (F := Ideal) S2000x128 .f32 0x00000000#32)) (broadcastTo S2000x128 (shapeCast S1x128 P3 shapeCasts_S128_S1x128) broadcasts_S1x128_S2000x128)) (broadcast S2000x128 (Scalar.ofBits (F := Ideal) .f32 0x00000000#32))

/-- The second hidden block. -/
def blk2 : FVec Ideal S2000x128 .f32 :=
  maximumf (addf (matmul dot_S2000x128_S128x128_S2000x128_1_0_0_1_n_n none (truncf .bf16 (blk1 P0 P1 P2 P3) bitsLt_bf16_f32) (truncf .bf16 P4 bitsLt_bf16_f32) (constant (F := Ideal) S2000x128 .f32 0x00000000#32)) (broadcastTo S2000x128 (shapeCast S1x128 P5 shapeCasts_S128_S1x128) broadcasts_S1x128_S2000x128)) (broadcast S2000x128 (Scalar.ofBits (F := Ideal) .f32 0x00000000#32))

/-- The block the normalisation receives. -/
def blk3 : FVec Ideal S2000x128 .f32 :=
  addf (matmul dot_S2000x128_S128x128_S2000x128_1_0_0_1_n_n none (truncf .bf16 (blk2 P0 P1 P2 P3 P4 P5) bitsLt_bf16_f32) (truncf .bf16 P6 bitsLt_bf16_f32) (constant (F := Ideal) S2000x128 .f32 0x00000000#32)) (broadcastTo S2000x128 (shapeCast S1x128 P7 shapeCasts_S128_S1x128) broadcasts_S1x128_S2000x128)

/-- The body's stored difference is the last block less its row means spread over the columns. -/
theorem pay2_eq :
    k0_pay2 (F := Ideal) P0 P1 P2 P3 P4 P5 P6 P7 = subf (blk3 P0 P1 P2 P3 P4 P5 P6 P7) (broadcastTo S2000x128 (divf (shapeCast S2000x1 (multiReduction .add [1] S2000 (blk3 P0 P1 P2 P3 P4 P5 P6 P7) 0x00000000#32 reduces_S2000x128_S2000 (.inl rfl) rfl) shapeCasts_S2000_S2000x1) (broadcast S2000x1 (Scalar.ofBits (F := Ideal) .f32 0x43000000#32))) broadcasts_S2000x1_S2000x128) := rfl

theorem blk1_at (r : Fin 2000) (j : Fin 128) :
    blk1 P0 P1 P2 P3 (ix2 r j) = hidden1 (rowOf P0 r) (rowOf P1 r) (matOf P2) (vecOf P3) j := by
  unfold blk1 hidden1 affine
  refine (congrArg₂ max (congrArg₂ (· + ·) (dot256_at _ _ r j) (bias_at P3 r j)) rfl).trans ?_
  refine congrArg (fun s => max (s + vecOf P3 j) zeroLit) (Finset.sum_congr rfl fun k _ => ?_)
  show (concatenate S2000x256 1 [⟨S2000x128, P0⟩, ⟨S2000x128, shapeCast S2000x128 P1 shapeCasts_S2000x128_S2000x128⟩] concatenates_S2000x128_S2000x128_S2000x256_d1) (ix2 r k) * P2 (ix2 k j) = _
  rw [cat_at]
  rfl

theorem blk2_at (r : Fin 2000) (j : Fin 128) :
    blk2 P0 P1 P2 P3 P4 P5 (ix2 r j)
      = hidden2 (rowOf P0 r) (rowOf P1 r) (matOf P2) (vecOf P3) (matOf P4) (vecOf P5) j := by
  unfold blk2 hidden2 affine
  refine (congrArg₂ max (congrArg₂ (· + ·) (dot128_at _ _ r j) (bias_at P5 r j)) rfl).trans ?_
  refine congrArg (fun s => max (s + vecOf P5 j) zeroLit) (Finset.sum_congr rfl fun k _ => ?_)
  show blk1 P0 P1 P2 P3 (ix2 r k) * P4 (ix2 k j) = _
  rw [blk1_at]
  rfl

theorem blk3_at (r : Fin 2000) (j : Fin 128) :
    blk3 P0 P1 P2 P3 P4 P5 P6 P7 (ix2 r j) = lastLayer (rowOf P0 r) (rowOf P1 r) (matOf P2) (vecOf P3) (matOf P4) (vecOf P5) (matOf P6) (vecOf P7) j := by
  unfold blk3 lastLayer affine
  refine (congrArg₂ (· + ·) (dot128_at _ _ r j) (bias_at P7 r j)).trans ?_
  refine congrArg (fun s => s + vecOf P7 j) (Finset.sum_congr rfl fun k _ => ?_)
  show blk2 P0 P1 P2 P3 P4 P5 (ix2 r k) * P6 (ix2 k j) = _
  rw [blk2_at]
  rfl

/-- A row's mean, spread over the columns. -/
theorem mean_at (v : FVec Ideal S2000x128 .f32) (w : Fin 128 → EReal) (r : Fin 2000) (j : Fin 128)
    (hv : ∀ k : Fin 128, v (ix2 r k) = w k) :
    (broadcastTo S2000x128 (divf (shapeCast S2000x1 (multiReduction .add [1] S2000 v 0x00000000#32 reduces_S2000x128_S2000 (.inl rfl) rfl) shapeCasts_S2000_S2000x1) (broadcast S2000x1 (Scalar.ofBits (F := Ideal) .f32 0x43000000#32))) broadcasts_S2000x1_S2000x128) (ix2 r j) = rowMean w := by
  rw [col_at]
  show Ideal.div (shapeCast S2000x1 (multiReduction .add [1] S2000 v 0x00000000#32 reduces_S2000x128_S2000 (.inl rfl) rfl) shapeCasts_S2000_S2000x1 (ix2 r (0 : Fin 1))) widthLit = _
  rw [keep_at, rowsum_at]
  unfold rowMean
  exact congrArg (Ideal.div · widthLit) (Finset.sum_congr rfl fun k _ => hv k)

/-- The body's stored difference at `(r, j)`: the last layer of row `r`, centred. -/
theorem pay2_at (r : Fin 2000) (j : Fin 128) :
    k0_pay2 (F := Ideal) P0 P1 P2 P3 P4 P5 P6 P7 (ix2 r j) = centred (lastLayer (rowOf P0 r) (rowOf P1 r) (matOf P2) (vecOf P3) (matOf P4) (vecOf P5) (matOf P6) (vecOf P7)) j := by
  rw [pay2_eq]
  show blk3 P0 P1 P2 P3 P4 P5 P6 P7 (ix2 r j) - (broadcastTo S2000x128 (divf (shapeCast S2000x1 (multiReduction .add [1] S2000 (blk3 P0 P1 P2 P3 P4 P5 P6 P7) 0x00000000#32 reduces_S2000x128_S2000 (.inl rfl) rfl) shapeCasts_S2000_S2000x1) (broadcast S2000x1 (Scalar.ofBits (F := Ideal) .f32 0x43000000#32))) broadcasts_S2000x1_S2000x128) (ix2 r j) = _
  rw [mean_at (blk3 P0 P1 P2 P3 P4 P5 P6 P7) (lastLayer (rowOf P0 r) (rowOf P1 r) (matOf P2) (vecOf P3) (matOf P4) (vecOf P5) (matOf P6) (vecOf P7)) r j (fun k => blk3_at P0 P1 P2 P3 P4 P5 P6 P7 r k), blk3_at]
  rfl

/-- THE BLOCK THE BODY LEAVES, entry by entry: the node's output row. -/
theorem block_at (P8 P9 : Vec Ideal S128 .f32) (r : Fin 2000) (j : Fin 128) :
    Cert.KernelIdeal.Value.E10 (F := Ideal) P0 P1 P2 P3 P4 P5 P6 P7 P8 P9 (ix2 r j)
      = rowOut (rowOf P0 r) (rowOf P1 r) (matOf P2) (vecOf P3) (matOf P4) (vecOf P5) (matOf P6) (vecOf P7) (vecOf P8) (vecOf P9) j := by
  have e0 : Cert.KernelIdeal.Value.ix10_0 (ix2 r j) = ix2 r j := funext fun a => match a with | ⟨0, _⟩ => rfl | ⟨1, _⟩ => rfl
  have e1 : Cert.KernelIdeal.Value.ix10_1 (ix2 r j) = ix1 r := funext fun a => match a with | ⟨0, _⟩ => rfl
  have e2 : Cert.KernelIdeal.Value.ix10_2 (ix2 r j) = ix1 j := funext fun a => match a with | ⟨0, _⟩ => rfl
  have e3 : Cert.KernelIdeal.Value.ix10_3 (ix2 r j) = ix1 j := funext fun a => match a with | ⟨0, _⟩ => rfl
  show k0_pay2 (F := Ideal) P0 P1 P2 P3 P4 P5 P6 P7 (Cert.KernelIdeal.Value.ix10_0 (ix2 r j))
        * Ideal.rsqrt (Ideal.div ((multiReduction .add [1] S2000 (mulf (k0_pay2 (F := Ideal) P0 P1 P2 P3 P4 P5 P6 P7) (k0_pay2 (F := Ideal) P0 P1 P2 P3 P4 P5 P6 P7)) 0x00000000#32 reduces_S2000x128_S2000 (.inl rfl) rfl) (Cert.KernelIdeal.Value.ix10_1 (ix2 r j))) widthLit + epsLit)
        * P8 (Cert.KernelIdeal.Value.ix10_2 (ix2 r j)) + P9 (Cert.KernelIdeal.Value.ix10_3 (ix2 r j)) = _
  rw [e0, e1, e2, e3, pay2_at, rowsum_at]
  have hs : ∑ k : Fin 128, mulf (k0_pay2 (F := Ideal) P0 P1 P2 P3 P4 P5 P6 P7) (k0_pay2 (F := Ideal) P0 P1 P2 P3 P4 P5 P6 P7) (ix2 r k)
      = ∑ k : Fin 128, centred (lastLayer (rowOf P0 r) (rowOf P1 r) (matOf P2) (vecOf P3) (matOf P4) (vecOf P5) (matOf P6) (vecOf P7)) k * centred (lastLayer (rowOf P0 r) (rowOf P1 r) (matOf P2) (vecOf P3) (matOf P4) (vecOf P5) (matOf P6) (vecOf P7)) k :=
    Finset.sum_congr rfl fun k _ => by
      show k0_pay2 (F := Ideal) P0 P1 P2 P3 P4 P5 P6 P7 (ix2 r k) * k0_pay2 (F := Ideal) P0 P1 P2 P3 P4 P5 P6 P7 (ix2 r k) = _
      rw [pay2_at]
  rw [hs]
  rfl

/-- So the block the body leaves is the table of its two input blocks and the weights. -/
theorem block_is_table (P8 P9 : Vec Ideal S128 .f32) :
    Cert.KernelIdeal.Value.E10 (F := Ideal) P0 P1 P2 P3 P4 P5 P6 P7 P8 P9 = table P0 P1 P2 P3 P4 P5 P6 P7 P8 P9 := by
  funext y
  obtain ⟨r, j, rfl⟩ : ∃ (r : Fin 2000) (j : Fin 128), y = ix2 r j := ⟨y 0, y 1, eq_ix2 y⟩
  exact block_at P0 P1 P2 P3 P4 P5 P6 P7 P8 P9 r j

end Cert.NodeUpdate.Ker

end
-- ==== Proof.Blocks.lean ====
/-
  From the 25 blocks to the whole node table.

  The grid has 25 points; point `t` stages rows `2000 · t … 2000 · t + 1999` of the node table and of the summed edge
  table, the whole of every weight, and writes back the same rows of the result. So what point `t` writes back is block
  `t` of `Cert.NodeUpdate.table` of the arrays as the kernel finds them; every row `R` of the result lies in the block of
  point `R / 2000`; hence the result array ends holding that table, and the kernel's run can be stated with it. The
  summed edge table is what the host's scatter wrote before the kernel started; it is named, not opened.
-/
import proofs.«175431_j2070174236986_1_alg».proof.Proof.Gen.KernelIdeal.Value
import proofs.«175431_j2070174236986_1_alg».proof.Proof.KerLayers
import Idealize.ShloMosaic.Lib.Pipeline.Value
import Idealize.ShloMosaic.Lib.StableHlo.Run

noncomputable section

namespace Cert.NodeUpdate.Ker

open Cert.KernelIdeal Cert.KernelIdeal.Gen Cert.KernelIdeal.Value Idealize.ShloMosaic Idealize.ShloMosaic.TcCoe Idealize.SL.Sem
open Idealize.ShloMosaic.ValueIdx Cert.NodeUpdate
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## The index maps, decided over the 25 points -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 1) = 0 :=
  (by decide +kernel : ∀ t : Fin grid0.N, win0_3.index t (0 : Fin 1) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 1) = 0 :=
  (by decide +kernel : ∀ t : Fin grid0.N, win0_5.index t (0 : Fin 1) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 1) = 0 :=
  (by decide +kernel : ∀ t : Fin grid0.N, win0_7.index t (0 : Fin 1) = 0)
theorem idx8 : ∀ t : Fin cfg0.N, win0_8.index t (0 : Fin 1) = 0 :=
  (by decide +kernel : ∀ t : Fin grid0.N, win0_8.index t (0 : Fin 1) = 0)
theorem idx9 : ∀ t : Fin cfg0.N, win0_9.index t (0 : Fin 1) = 0 :=
  (by decide +kernel : ∀ t : Fin grid0.N, win0_9.index t (0 : Fin 1) = 0)
theorem idx10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

/-! ## What the body leaves, as the table of the staged blocks -/

/-- The output block after the body, for any staged blocks: the table of the two row blocks and the weights. -/
theorem out_is_table (x0 x1 : Vec Ideal S2000x128 .f32) (x2 : Vec Ideal S256x128 .f32) (x3 : Vec Ideal S128 .f32)
    (x4 : Vec Ideal S128x128 .f32) (x5 : Vec Ideal S128 .f32) (x6 : Vec Ideal S128x128 .f32) (x7 x8 x9 : Vec Ideal S128 .f32) :
    out0_10 (F := Ideal) x0 x1 x2 x3 x4 x5 x6 x7 x8 x9 = table x0 x1 x2 x3 x4 x5 x6 x7 x8 x9 := by
  unfold out0_10
  simp only [View.ld_unit_zero (S := S2000x128) hz2, View.ld_unit_zero (S := S256x128) hz2,
    View.ld_unit_zero (S := S128x128) hz2, View.ld_unit_zero (S := S128) hz1]
  funext y
  exact (canon10_eq x0 x1 x2 x3 x4 x5 x6 x7 x8 x9 y).trans (congrFun (block_is_table x0 x1 x2 x3 x4 x5 x6 x7 x8 x9) y)

/-! ## Each window's block as rows of its array -/

/-- Row `r` of window 0's block at point `t` is row `2000 · t + r` of its array. -/
theorem blk0_row (c : Dev nD) (t : Fin cfg0.N) (r : Fin 2000) (R : Fin 50000) (hR : R.val = 2000 * t.val + r.val) :
    rowOf (iblk m c 0 t) r = rowOf (V m c main_arg0) R := by
  obtain ⟨f0, f1⟩ := idx0 t
  funext k
  show V m c main_arg0 (((cfg0.win 0).blk t).view.emb (ix2 r k)) = V m c main_arg0 (ix2 R k)
  refine congrArg (V m c main_arg0) (funext fun a => Fin.ext ?_)
  match a with
  | ⟨0, _⟩ => show win0_0.index t (0 : Fin 2) * 2000 + 1 * r.val = R.val; rw [f0, hR]; omega
  | ⟨1, _⟩ => show win0_0.index t (1 : Fin 2) * 128 + 1 * k.val = k.val; rw [f1]; omega

/-- Row `r` of window 1's block at point `t` is row `2000 · t + r` of its array. -/
theorem blk1_row (c : Dev nD) (t : Fin cfg0.N) (r : Fin 2000) (R : Fin 50000) (hR : R.val = 2000 * t.val + r.val) :
    rowOf (iblk m c 1 t) r = rowOf (V m c main_v4) R := by
  obtain ⟨f0, f1⟩ := idx1 t
  funext k
  show V m c main_v4 (((cfg0.win 1).blk t).view.emb (ix2 r k)) = V m c main_v4 (ix2 R k)
  refine congrArg (V m c main_v4) (funext fun a => Fin.ext ?_)
  match a with
  | ⟨0, _⟩ => show win0_1.index t (0 : Fin 2) * 2000 + 1 * r.val = R.val; rw [f0, hR]; omega
  | ⟨1, _⟩ => show win0_1.index t (1 : Fin 2) * 128 + 1 * k.val = k.val; rw [f1]; omega

/-- Window 2 stages the whole of its array at every point. -/
theorem blk2_mat (c : Dev nD) (t : Fin cfg0.N) : matOf (iblk m c 2 t) = matOf (V m c main_arg3) := by
  obtain ⟨f0, f1⟩ := idx2 t
  funext k j
  show V m c main_arg3 (((cfg0.win 2).blk t).view.emb (ix2 k j)) = V m c main_arg3 (ix2 k j)
  refine congrArg (V m c main_arg3) (funext fun a => Fin.ext ?_)
  match a with
  | ⟨0, _⟩ => show win0_2.index t (0 : Fin 2) * 256 + 1 * k.val = k.val; rw [f0]; omega
  | ⟨1, _⟩ => show win0_2.index t (1 : Fin 2) * 128 + 1 * j.val = j.val; rw [f1]; omega

/-- Window 3 stages the whole of its vector at every point. -/
theorem blk3_vec (c : Dev nD) (t : Fin cfg0.N) : vecOf (iblk m c 3 t) = vecOf (V m c main_arg4) := by
  have f0 := idx3 t
  funext j
  show V m c main_arg4 (((cfg0.win 3).blk t).view.emb (ix1 j)) = V m c main_arg4 (ix1 j)
  refine congrArg (V m c main_arg4) (funext fun a => Fin.ext ?_)
  match a with
  | ⟨0, _⟩ => show win0_3.index t (0 : Fin 1) * 128 + 1 * j.val = j.val; rw [f0]; omega

/-- Window 4 stages the whole of its array at every point. -/
theorem blk4_mat (c : Dev nD) (t : Fin cfg0.N) : matOf (iblk m c 4 t) = matOf (V m c main_arg5) := by
  obtain ⟨f0, f1⟩ := idx4 t
  funext k j
  show V m c main_arg5 (((cfg0.win 4).blk t).view.emb (ix2 k j)) = V m c main_arg5 (ix2 k j)
  refine congrArg (V m c main_arg5) (funext fun a => Fin.ext ?_)
  match a with
  | ⟨0, _⟩ => show win0_4.index t (0 : Fin 2) * 128 + 1 * k.val = k.val; rw [f0]; omega
  | ⟨1, _⟩ => show win0_4.index t (1 : Fin 2) * 128 + 1 * j.val = j.val; rw [f1]; omega

/-- Window 5 stages the whole of its vector at every point. -/
theorem blk5_vec (c : Dev nD) (t : Fin cfg0.N) : vecOf (iblk m c 5 t) = vecOf (V m c main_arg6) := by
  have f0 := idx5 t
  funext j
  show V m c main_arg6 (((cfg0.win 5).blk t).view.emb (ix1 j)) = V m c main_arg6 (ix1 j)
  refine congrArg (V m c main_arg6) (funext fun a => Fin.ext ?_)
  match a with
  | ⟨0, _⟩ => show win0_5.index t (0 : Fin 1) * 128 + 1 * j.val = j.val; rw [f0]; omega

/-- Window 6 stages the whole of its array at every point. -/
theorem blk6_mat (c : Dev nD) (t : Fin cfg0.N) : matOf (iblk m c 6 t) = matOf (V m c main_arg7) := by
  obtain ⟨f0, f1⟩ := idx6 t
  funext k j
  show V m c main_arg7 (((cfg0.win 6).blk t).view.emb (ix2 k j)) = V m c main_arg7 (ix2 k j)
  refine congrArg (V m c main_arg7) (funext fun a => Fin.ext ?_)
  match a with
  | ⟨0, _⟩ => show win0_6.index t (0 : Fin 2) * 128 + 1 * k.val = k.val; rw [f0]; omega
  | ⟨1, _⟩ => show win0_6.index t (1 : Fin 2) * 128 + 1 * j.val = j.val; rw [f1]; omega

/-- Window 7 stages the whole of its vector at every point. -/
theorem blk7_vec (c : Dev nD) (t : Fin cfg0.N) : vecOf (iblk m c 7 t) = vecOf (V m c main_arg8) := by
  have f0 := idx7 t
  funext j
  show V m c main_arg8 (((cfg0.win 7).blk t).view.emb (ix1 j)) = V m c main_arg8 (ix1 j)
  refine congrArg (V m c main_arg8) (funext fun a => Fin.ext ?_)
  match a with
  | ⟨0, _⟩ => show win0_7.index t (0 : Fin 1) * 128 + 1 * j.val = j.val; rw [f0]; omega

/-- Window 8 stages the whole of its vector at every point. -/
theorem blk8_vec (c : Dev nD) (t : Fin cfg0.N) : vecOf (iblk m c 8 t) = vecOf (V m c main_arg9) := by
  have f0 := idx8 t
  funext j
  show V m c main_arg9 (((cfg0.win 8).blk t).view.emb (ix1 j)) = V m c main_arg9 (ix1 j)
  refine congrArg (V m c main_arg9) (funext fun a => Fin.ext ?_)
  match a with
  | ⟨0, _⟩ => show win0_8.index t (0 : Fin 1) * 128 + 1 * j.val = j.val; rw [f0]; omega

/-- Window 9 stages the whole of its vector at every point. -/
theorem blk9_vec (c : Dev nD) (t : Fin cfg0.N) : vecOf (iblk m c 9 t) = vecOf (V m c main_arg10) := by
  have f0 := idx9 t
  funext j
  show V m c main_arg10 (((cfg0.win 9).blk t).view.emb (ix1 j)) = V m c main_arg10 (ix1 j)
  refine congrArg (V m c main_arg10) (funext fun a => Fin.ext ?_)
  match a with
  | ⟨0, _⟩ => show win0_9.index t (0 : Fin 1) * 128 + 1 * j.val = j.val; rw [f0]; omega

/-! ## What point `t` writes back, the cover, the final array -/

/-- The table of the arrays as the kernel finds them. -/
abbrev found (c : Dev nD) : S50000x128.Idx → EReal :=
  table (V m c main_arg0) (V m c main_v4) (V m c main_arg3) (V m c main_arg4) (V m c main_arg5) (V m c main_arg6) (V m c main_arg7) (V m c main_arg8) (V m c main_arg9) (V m c main_arg10)

/-- WHAT POINT `t` WRITES BACK is block `t` of the table of the arrays as the kernel finds them. -/
theorem flushed_eq (c : Dev nD) (t : Fin cfg0.N) :
    (dats m 0 c).flushed 10 t = ((cfg0.win 10).blk t).view.read (Elt Ideal) (found m c) := by
  have h := out_is_table (iblk m c 0 t) (iblk m c 1 t) (iblk m c 2 t) (iblk m c 3 t) (iblk m c 4 t) (iblk m c 5 t) (iblk m c 6 t) (iblk m c 7 t) (iblk m c 8 t) (iblk m c 9 t)
  rw [flushed10, h]
  obtain ⟨g0, g1⟩ := idx10 t
  have hN : cfg0.N = 25 := N_0
  funext y
  obtain ⟨r, j, rfl⟩ : ∃ (r : Fin 2000) (j : Fin 128), y = ix2 r j := ⟨y 0, y 1, eq_ix2 y⟩
  have hR : 2000 * t.val + r.val < 50000 := by have := t.isLt; have := r.isLt; omega
  have he : ((cfg0.win 10).blk t).view.emb (ix2 r j) = ix2 (⟨2000 * t.val + r.val, hR⟩ : Fin 50000) j := by
    funext a; apply Fin.ext
    match a with
    | ⟨0, _⟩ => show win0_10.index t (0 : Fin 2) * 2000 + 1 * r.val = 2000 * t.val + r.val; rw [g0]; omega
    | ⟨1, _⟩ => show win0_10.index t (1 : Fin 2) * 128 + 1 * j.val = j.val; rw [g1]; omega
  show table (iblk m c 0 t) (iblk m c 1 t) (iblk m c 2 t) (iblk m c 3 t) (iblk m c 4 t) (iblk m c 5 t) (iblk m c 6 t) (iblk m c 7 t) (iblk m c 8 t) (iblk m c 9 t) (ix2 r j) = found m c (((cfg0.win 10).blk t).view.emb (ix2 r j))
  rw [he]
  show rowOut (rowOf (iblk m c 0 t) r) (rowOf (iblk m c 1 t) r) (matOf (iblk m c 2 t)) (vecOf (iblk m c 3 t))
      (matOf (iblk m c 4 t)) (vecOf (iblk m c 5 t)) (matOf (iblk m c 6 t)) (vecOf (iblk m c 7 t)) (vecOf (iblk m c 8 t))
      (vecOf (iblk m c 9 t)) j
    = rowOut (rowOf (V m c main_arg0) ⟨2000 * t.val + r.val, hR⟩) (rowOf (V m c main_v4) ⟨2000 * t.val + r.val, hR⟩)
      (matOf (V m c main_arg3)) (vecOf (V m c main_arg4)) (matOf (V m c main_arg5)) (vecOf (V m c main_arg6))
      (matOf (V m c main_arg7)) (vecOf (V m c main_arg8)) (vecOf (V m c main_arg9)) (vecOf (V m c main_arg10)) j
  rw [blk0_row m c t r ⟨2000 * t.val + r.val, hR⟩ rfl, blk1_row m c t r ⟨2000 * t.val + r.val, hR⟩ rfl,
    blk2_mat, blk3_vec, blk4_mat, blk5_vec, blk6_mat, blk7_vec, blk8_vec, blk9_vec]

/-- An index of the result array is in point `t`'s block iff each coordinate is in the block's range on its axis. -/
theorem mem_blk (t : Fin cfg0.N) (i : S50000x128.Idx) :
    i ∈ ((cfg0.win 10).blk t).view.set ↔ ∀ a : Fin 2, win0_10.index t a * S2000x128.size a ≤ (i a).val
      ∧ (i a).val < win0_10.index t a * S2000x128.size a + S2000x128.size a := by
  show i ∈ ((View.whole main_v5).slice (win0_10.rect t)).set ↔ _
  rw [View.set_slice_whole, Rect.mem_set_unit]
  exact Iff.rfl

/-- Every row of the result is in the block of the point its row number divided by 2000 names. -/
theorem cover (i : S50000x128.Idx) :
    ∃ t : Fin cfg0.N, (cfg0.win 10).flush t = true ∧ i ∈ ((cfg0.win 10).blk t).view.set := by
  have hN : cfg0.N = 25 := N_0
  have hi0 : (i 0).val < 50000 := idx2_lt0 i
  have hi1 : (i 1).val < 128 := idx2_lt1 i
  refine ⟨⟨(i 0).val / 2000, by rw [hN]; omega⟩, flush0_10 _, ?_⟩
  rw [mem_blk]
  obtain ⟨g0, g1⟩ := idx10 ⟨(i 0).val / 2000, by rw [hN]; omega⟩
  intro a
  match a with
  | ⟨0, _⟩ =>
    show win0_10.index ⟨(i 0).val / 2000, _⟩ (0 : Fin 2) * 2000 ≤ (i 0).val
      ∧ (i 0).val < win0_10.index ⟨(i 0).val / 2000, _⟩ (0 : Fin 2) * 2000 + 2000
    rw [g0]; show (i 0).val / 2000 * 2000 ≤ (i 0).val ∧ (i 0).val < (i 0).val / 2000 * 2000 + 2000; omega
  | ⟨1, _⟩ =>
    show win0_10.index ⟨(i 0).val / 2000, _⟩ (1 : Fin 2) * 128 ≤ (i 1).val
      ∧ (i 1).val < win0_10.index ⟨(i 0).val / 2000, _⟩ (1 : Fin 2) * 128 + 128
    rw [g1]; omega

/-- THE RESULT ARRAY after the run is the table of the arrays as the kernel finds them. -/
theorem final (c : Dev nD) : (dats m 0 c).arrAt 10 cfg0.N = found m c :=
  (dats m 0 c).arrAt_eq_of_cover 10 (found m c) (fun t _ => flushed_eq m c t) cover

end Cert.NodeUpdate.Ker

end
-- ==== Proof.KernelRun.lean ====
/-
  The kernel's run, stated with the table.

  Before the kernel starts, the host has summed the edge features onto their destination nodes: a scatter-add into a zero
  table, indexed by the second row of the edge index. That table is the kernel's second operand; it is named `edgeSum`
  and never opened. The other operands are the launch contents of the arguments. So after the run the result array holds
  `Cert.NodeUpdate.table` of the node features, `edgeSum` of the edge index and the edge features, and the weights, and
  every argument is as launched.
-/
import proofs.«175431_j2070174236986_1_alg».proof.Proof.Blocks

noncomputable section

namespace Cert.NodeUpdate.Ker

open Cert.KernelIdeal Cert.KernelIdeal.Gen Cert.KernelIdeal.Value Idealize.ShloMosaic Idealize.ShloMosaic.TcCoe Idealize.SL.Sem
open Idealize.ShloMosaic.ValueIdx Cert.NodeUpdate Idealize.ShloMosaic.StableHlo

variable (m : (ℓ : Loc nD τ sig) → Buf (Elt Ideal) ℓ) (ρ : Dev nD → PrngReg)

/-- The edge features summed onto their destination nodes, as the host computes it before the kernel starts. -/
def edgeSum (e : (⟨S2x600000, .i32⟩ : BufTy).Contents (Elt Ideal)) (u : (⟨S600000x128, .f32⟩ : BufTy).Contents (Elt Ideal)) :
    (⟨S50000x128, .f32⟩ : BufTy).Contents (Elt Ideal) :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0
      (shapeCast _ (extractStridedSlice S1x600000 ![1, 0] e slices_S2x600000_S1x600000_1_0) shapeCasts_S1x600000_S600000))
    u

/-- The kernel's second operand, as the kernel finds it, is that sum of the launch contents. -/
theorem V_edge (c : Dev nD) :
    (V m c main_v4 : S50000x128.Idx → EReal) = edgeSum (m ((c : Thread nD τ).loc main_arg1)) (m ((c : Thread nD τ).loc main_arg2)) := by
  dsimp only [Gen.V, Gen.hostOps0]
  after_results
  rfl

/-- The arrays as the kernel finds them, over the launch memory. -/
theorem found_eq (c : Dev nD) : found m c = table (m ((c : Thread nD τ).loc main_arg0)) (edgeSum (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold found
  rw [V_edge, V_main_arg0, V_main_arg3, V_main_arg4, V_main_arg5, V_main_arg6, V_main_arg7, V_main_arg8, V_main_arg9,
    V_main_arg10]

/-- THE KERNEL'S RUN: every weakly fair execution terminates with the result array at the table and the arguments unchanged. -/
theorem run : θ_run defs (onTc (τ := τ) (main (F := Ideal))) ⟨m, fun _ => 0, ρ⟩ fun r => ∀ c : Dev nD,
      r.2.mem ((c : Thread nD τ).loc main_v5) = table (m ((c : Thread nD τ).loc main_arg0)) (edgeSum (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans ((final m c).trans (found_eq m c)), (h c).2⟩) (run_blocks m ρ)

end Cert.NodeUpdate.Ker

end
-- ==== Proof.RefLayers.lean ====
/-
  The reference, layer by layer, at row `r` and column `j`.

  The host program joins the node table and the summed edge table along the columns, and takes three matrix products
  with a bias added, the first two clipped at zero. Read at entry `(r, j)`, each product is the sum over the contraction
  index `k` of entry `(r, k)` of the left table times entry `(k, j)` of the weights; so each stage at `(r, j)` is the
  corresponding stage of `Cert.NodeUpdate` applied to row `r` of the inputs. The summed edge table is whatever the
  host's scatter left: it is carried as one opaque table and never opened.
-/
import proofs.«175431_j2070174236986_1_alg».proof.Proof.Gen.ReferenceIdeal.Read
import proofs.«175431_j2070174236986_1_alg».proof.Proof.Table
import Idealize.ShloMosaic.Lib.Pipeline.Value
import Idealize.ShloMosaic.Lib.ValueIdx

noncomputable section

namespace Cert.NodeUpdate.Ref

open Cert.ReferenceIdeal Cert.ReferenceIdeal.Gen Cert.ReferenceIdeal.Read Idealize.ShloMosaic Idealize.ShloMosaic.ValueIdx Cert.NodeUpdate

/-- The two tables joined along the columns, at row `r`: the joined row of the two rows. -/
theorem cat_at (x0 a : FVec Ideal S50000x128 .f32) (r : Fin 50000) (k : Fin 256) :
    concatenate S50000x256 1 [⟨S50000x128, x0⟩, ⟨S50000x128, a⟩] concatenates_S50000x128_S50000x128_S50000x256_d1 (ix2 r k)
      = joined (rowOf x0 r) (rowOf a r) k := by
  by_cases h : k.val < 128
  · rw [joined_lt _ _ _ h]
    exact concatenate_pair_apply_left (1 : Fin 2) x0 a concatenates_S50000x128_S50000x128_S50000x256_d1 (ix2 r k) rfl
      (ix2 r ⟨k.val, h⟩) (fun b => match b with | ⟨0, _⟩ => rfl | ⟨1, _⟩ => rfl)
  · have h' : 128 ≤ k.val := Nat.le_of_not_lt h
    rw [joined_ge _ _ _ h']
    exact concatenate_pair_apply_right (1 : Fin 2) x0 a concatenates_S50000x128_S50000x128_S50000x256_d1 (ix2 r k) rfl rfl
      (ix2 r ⟨k.val - 128, by have := k.isLt; omega⟩)
      (fun b hb => match b, hb with | ⟨0, _⟩, _ => rfl | ⟨1, _⟩, hb => absurd rfl hb)
      (by show (k.val - 128) + 128 = k.val; omega)

variable (x0 : (⟨S50000x128, .f32⟩ : BufTy).Contents (Elt Ideal)) (x1 : (⟨S2x600000, .i32⟩ : BufTy).Contents (Elt Ideal))
  (x2 : (⟨S600000x128, .f32⟩ : BufTy).Contents (Elt Ideal)) (x3 : (⟨S256x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal))

/-- A bias broadcast over the rows reads its entry at the column. -/
theorem bias_at (b : (⟨S128, .f32⟩ : BufTy).Contents (Elt Ideal)) (r : Fin 50000) (j : Fin 128) :
    val_main_v8 (F := Ideal) b (ix2 r j) = vecOf b j := by
  rw [val_main_v8_apply, val_main_v7_apply]
  show b _ = b (ix1 j)
  exact congrArg b (funext fun a => match a with | ⟨0, _⟩ => rfl)

/-- The first layer before clipping. -/
theorem v9_at (r : Fin 50000) (j : Fin 128) :
    val_main_v9 (F := Ideal) x0 x1 x2 x3 x4 (ix2 r j)
      = affine (joined (rowOf x0 r) (rowOf (val_main_v4 (F := Ideal) x1 x2) r)) (matOf x3) (vecOf x4) j := by
  rw [val_main_v9_apply, val_main_v6_apply, bias_at]
  unfold affine
  show _ + _ = _ + _
  refine congrArg (· + vecOf x4 j) (Finset.sum_congr rfl fun k _ => ?_)
  have e1 : lidx_main_v6 (ix2 r j) k = ix2 r k := funext fun a => match a with | ⟨0, _⟩ => rfl | ⟨1, _⟩ => rfl
  have e2 : ridx_main_v6 (ix2 r j) k = ix2 k j := funext fun a => match a with | ⟨0, _⟩ => rfl | ⟨1, _⟩ => rfl
  rw [e1, e2]
  unfold val_main_v5
  rw [cat_at]
  rfl

/-- The clipping zero, broadcast over the table, is the zero word at every entry. -/
theorem clip0_at (i : S50000x128.Idx) : val_main_call0_v0 (F := Ideal) i = zeroLit := by
  rw [val_main_call0_v0_apply, val_main_call0_cst_apply]; rfl

theorem clip1_at (i : S50000x128.Idx) : val_main_call1_v0 (F := Ideal) i = zeroLit := by
  rw [val_main_call1_v0_apply, val_main_call1_cst_apply]; rfl

/-- The first hidden table at `(r, j)`. -/
theorem v10_at (r : Fin 50000) (j : Fin 128) :
    val_main_v10 (F := Ideal) x0 x1 x2 x3 x4 (ix2 r j)
      = hidden1 (rowOf x0 r) (rowOf (val_main_v4 (F := Ideal) x1 x2) r) (matOf x3) (vecOf x4) j := by
  rw [val_main_v10_apply, v9_at, clip0_at]
  rfl

/-- The second layer before clipping. -/
theorem v14_at (r : Fin 50000) (j : Fin 128) :
    val_main_v14 (F := Ideal) x0 x1 x2 x3 x4 x5 x6 (ix2 r j)
      = affine (hidden1 (rowOf x0 r) (rowOf (val_main_v4 (F := Ideal) x1 x2) r) (matOf x3) (vecOf x4)) (matOf x5) (vecOf x6) j := by
  rw [val_main_v14_apply, val_main_v11_apply]
  have hb : val_main_v13 (F := Ideal) x6 (ix2 r j) = vecOf x6 j := by
    rw [val_main_v13_apply, val_main_v12_apply]
    show x6 _ = x6 (ix1 j)
    exact congrArg x6 (funext fun a => match a with | ⟨0, _⟩ => rfl)
  rw [hb]
  unfold affine
  show _ + _ = _ + _
  refine congrArg (· + vecOf x6 j) (Finset.sum_congr rfl fun k _ => ?_)
  have e1 : lidx_main_v11 (ix2 r j) k = ix2 r k := funext fun a => match a with | ⟨0, _⟩ => rfl | ⟨1, _⟩ => rfl
  have e2 : ridx_main_v11 (ix2 r j) k = ix2 k j := funext fun a => match a with | ⟨0, _⟩ => rfl | ⟨1, _⟩ => rfl
  rw [e1, e2, v10_at]
  rfl

/-- The second hidden table at `(r, j)`. -/
theorem v15_at (r : Fin 50000) (j : Fin 128) :
    val_main_v15 (F := Ideal) x0 x1 x2 x3 x4 x5 x6 (ix2 r j)
      = hidden2 (rowOf x0 r) (rowOf (val_main_v4 (F := Ideal) x1 x2) r) (matOf x3) (vecOf x4) (matOf x5) (vecOf x6) j := by
  rw [val_main_v15_apply, v14_at, clip1_at]
  rfl

/-- The table the normalisation receives, at `(r, j)`. -/
theorem v19_at (r : Fin 50000) (j : Fin 128) :
    val_main_v19 (F := Ideal) x0 x1 x2 x3 x4 x5 x6 x7 x8 (ix2 r j)
      = lastLayer (rowOf x0 r) (rowOf (val_main_v4 (F := Ideal) x1 x2) r) (matOf x3) (vecOf x4) (matOf x5) (vecOf x6)
          (matOf x7) (vecOf x8) j := by
  rw [val_main_v19_apply, val_main_v16_apply]
  have hb : val_main_v18 (F := Ideal) x8 (ix2 r j) = vecOf x8 j := by
    rw [val_main_v18_apply, val_main_v17_apply]
    show x8 _ = x8 (ix1 j)
    exact congrArg x8 (funext fun a => match a with | ⟨0, _⟩ => rfl)
  rw [hb]
  unfold lastLayer affine
  show _ + _ = _ + _
  refine congrArg (· + vecOf x8 j) (Finset.sum_congr rfl fun k _ => ?_)
  have e1 : lidx_main_v16 (ix2 r j) k = ix2 r k := funext fun a => match a with | ⟨0, _⟩ => rfl | ⟨1, _⟩ => rfl
  have e2 : ridx_main_v16 (ix2 r j) k = ix2 k j := funext fun a => match a with | ⟨0, _⟩ => rfl | ⟨1, _⟩ => rfl
  rw [e1, e2, v15_at]
  rfl

end Cert.NodeUpdate.Ref

end
-- ==== Proof.RefNorm.lean ====
/-
  The reference's normalisation at row `r`, and the reference as the table.

  The host sums each row of the last layer (from the zero word, which is the number zero), divides by 128, takes the
  difference from every entry, sums the squared differences of the row, divides by 128 again, adds ε and takes the
  reciprocal square root; the difference times that, times γ, plus β is the result. Entry by entry this is
  `Cert.NodeUpdate.rowOut` of row `r`, so the reference's result is `Cert.NodeUpdate.table` of the node table, the summed
  edge table and the weights.
-/
import proofs.«175431_j2070174236986_1_alg».proof.Proof.RefLayers

noncomputable section

namespace Cert.NodeUpdate.Ref

open Cert.ReferenceIdeal Cert.ReferenceIdeal.Gen Cert.ReferenceIdeal.Read Idealize.ShloMosaic Idealize.ShloMosaic.ValueIdx Cert.NodeUpdate

variable (x0 : (⟨S50000x128, .f32⟩ : BufTy).Contents (Elt Ideal)) (x1 : (⟨S2x600000, .i32⟩ : BufTy).Contents (Elt Ideal))
  (x2 : (⟨S600000x128, .f32⟩ : BufTy).Contents (Elt Ideal)) (x3 : (⟨S256x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 x9 x10 : (⟨S128, .f32⟩ : BufTy).Contents (Elt Ideal))

/-- Row `r` of the last layer, as the reference computes it. -/
abbrev lastRow (r : Fin 50000) : Fin 128 → EReal :=
  lastLayer (rowOf x0 r) (rowOf (val_main_v4 (F := Ideal) x1 x2) r) (matOf x3) (vecOf x4) (matOf x5) (vecOf x6) (matOf x7) (vecOf x8)

/-- The host's row sum starts from the zero word, which is zero: it is the plain sum of the row. -/
theorem rowsum_at (r : Fin 50000) :
    val_main_v20 (F := Ideal) x0 x1 x2 x3 x4 x5 x6 x7 x8 (ix1 r) = ∑ j : Fin 128, lastRow x0 x1 x2 x3 x4 x5 x6 x7 x8 r j := by
  rw [val_main_v20_apply, val_main_cst_0_apply]
  show Ideal.ofBits .f32 0x00000000#32 + _ = _
  rw [Ideal.ofBits_zero_f32, zero_add]
  refine Finset.sum_congr rfl fun k _ => ?_
  have e : idx_main_v20 (ix1 r) k = ix2 r k := funext fun a => match a with | ⟨0, _⟩ => rfl | ⟨1, _⟩ => rfl
  rw [e, v19_at]

/-- The row mean, kept as a column of one entry per row. -/
theorem mean_at (r : Fin 50000) (u : Fin 1) :
    val_main_v23 (F := Ideal) x0 x1 x2 x3 x4 x5 x6 x7 x8 (ix2 r u) = rowMean (lastRow x0 x1 x2 x3 x4 x5 x6 x7 x8 r) := by
  rw [val_main_v23_apply, val_main_v21_apply, val_main_v22_apply, val_main_cst_1_apply]
  have e : idx_main_v21 (ix2 r u) = ix1 r := funext fun a => match a with | ⟨0, _⟩ => rfl
  rw [e, rowsum_at]
  rfl

/-- Every entry less its row's mean. -/
theorem v25_at (r : Fin 50000) (j : Fin 128) :
    val_main_v25 (F := Ideal) x0 x1 x2 x3 x4 x5 x6 x7 x8 (ix2 r j) = centred (lastRow x0 x1 x2 x3 x4 x5 x6 x7 x8 r) j := by
  rw [val_main_v25_apply, v19_at, val_main_v24_apply]
  have e : idx_main_v24 (ix2 r j) = ix2 r (0 : Fin 1) := funext fun a => match a with | ⟨0, _⟩ => rfl | ⟨1, _⟩ => rfl
  rw [e, mean_at]
  rfl

/-- The same difference, as the program takes it a second time for the product. -/
theorem v32_at (r : Fin 50000) (j : Fin 128) :
    val_main_v32 (F := Ideal) x0 x1 x2 x3 x4 x5 x6 x7 x8 (ix2 r j) = centred (lastRow x0 x1 x2 x3 x4 x5 x6 x7 x8 r) j := by
  rw [val_main_v32_apply, v19_at, val_main_v31_apply]
  have e : idx_main_v31 (ix2 r j) = ix2 r (0 : Fin 1) := funext fun a => match a with | ⟨0, _⟩ => rfl | ⟨1, _⟩ => rfl
  rw [e, mean_at]
  rfl

/-- The mean of the squared differences of a row. -/
theorem sqmean_at (r : Fin 50000) (u : Fin 1) :
    val_main_v30 (F := Ideal) x0 x1 x2 x3 x4 x5 x6 x7 x8 (ix2 r u)
      = rowMean (fun k => centred (lastRow x0 x1 x2 x3 x4 x5 x6 x7 x8 r) k * centred (lastRow x0 x1 x2 x3 x4 x5 x6 x7 x8 r) k) := by
  rw [val_main_v30_apply, val_main_v28_apply, val_main_v29_apply, val_main_cst_3_apply]
  have e : idx_main_v28 (ix2 r u) = ix1 r := funext fun a => match a with | ⟨0, _⟩ => rfl
  rw [e, val_main_v27_apply, val_main_cst_2_apply]
  unfold rowMean
  show Ideal.div (Ideal.ofBits .f32 0x00000000#32 + _) _ = Ideal.div _ _
  rw [Ideal.ofBits_zero_f32, zero_add]
  refine congrArg (Ideal.div · widthLit) (Finset.sum_congr rfl fun k _ => ?_)
  have e' : idx_main_v27 (ix1 r) k = ix2 r k := funext fun a => match a with | ⟨0, _⟩ => rfl | ⟨1, _⟩ => rfl
  rw [e', val_main_v26_apply, v25_at]
  rfl

/-- The reciprocal deviation of a row. -/
theorem v35_at (r : Fin 50000) (u : Fin 1) :
    val_main_v35 (F := Ideal) x0 x1 x2 x3 x4 x5 x6 x7 x8 (ix2 r u) = invDev (lastRow x0 x1 x2 x3 x4 x5 x6 x7 x8 r) := by
  rw [val_main_v35_apply, val_main_v34_apply, sqmean_at, val_main_v33_apply, val_main_cst_4_apply]
  rfl

/-- The reference's result at `(r, j)` is the node's output row at `j`. -/
theorem v43_at (r : Fin 50000) (j : Fin 128) :
    val_main_v43 (F := Ideal) x0 x1 x2 x3 x4 x5 x6 x7 x8 x9 x10 (ix2 r j)
      = rowOut (rowOf x0 r) (rowOf (val_main_v4 (F := Ideal) x1 x2) r) (matOf x3) (vecOf x4) (matOf x5) (vecOf x6)
          (matOf x7) (vecOf x8) (vecOf x9) (vecOf x10) j := by
  rw [val_main_v43_apply, val_main_v40_apply, val_main_v37_apply, v32_at, val_main_v36_apply]
  have e : idx_main_v36 (ix2 r j) = ix2 r (0 : Fin 1) := funext fun a => match a with | ⟨0, _⟩ => rfl | ⟨1, _⟩ => rfl
  rw [e, v35_at, val_main_v39_apply, val_main_v38_apply, val_main_v42_apply, val_main_v41_apply]
  have e9 : idx_main_v38 (idx_main_v39 (ix2 r j)) = ix1 j := funext fun a => match a with | ⟨0, _⟩ => rfl
  have e10 : idx_main_v41 (idx_main_v42 (ix2 r j)) = ix1 j := funext fun a => match a with | ⟨0, _⟩ => rfl
  rw [e9, e10]
  rfl

/-- The reference's result is the table of its arguments: the node table, the summed edge table, the weights. -/
theorem ref_is_table :
    val_main_v43 (F := Ideal) x0 x1 x2 x3 x4 x5 x6 x7 x8 x9 x10
      = table x0 (val_main_v4 (F := Ideal) x1 x2) x3 x4 x5 x6 x7 x8 x9 x10 := by
  funext i
  obtain ⟨r, j, rfl⟩ : ∃ (r : Fin 50000) (j : Fin 128), i = ix2 r j := ⟨i 0, i 1, eq_ix2 i⟩
  exact v43_at x0 x1 x2 x3 x4 x5 x6 x7 x8 x9 x10 r j

end Cert.NodeUpdate.Ref

end
-- ==== Proof.lean ====
/-
  A message-passing node update against its plain formulation, over the extended reals.

  Both programs first sum the edge features onto their destination nodes (the same host scatter-add in both, carried as
  one opaque table) and then compute, for every node, one row: the node's features joined with its summed edge features,
  through three affine layers (the first two clipped at zero), normalised over the 128 entries of the row, scaled and
  shifted. The kernel does this on 25 blocks of 2000 rows, with matrix products accumulated into zero and sums along the
  columns; the reference on the whole table, with host matrix products and host row sums. Read index by index, at the
  ideal values, both results are the one table `Cert.NodeUpdate.table` of the arguments:
  the reference by `Cert.NodeUpdate.Ref.ref_is_table`, the kernel by `Cert.NodeUpdate.Ker.run`. No law that needs finite
  values is used: sums over the extended reals may be regrouped freely, and every other step is the same operation on both
  sides, so the precondition is never opened. The two frames of the kernel are the generated ones; the reference's is its
  run with the result dropped; the idealization rewrote nothing, so `preserves` holds trivially.
-/
import proofs.«175431_j2070174236986_1_alg».proof.Defs
import proofs.«175431_j2070174236986_1_alg».proof.Proof.Gen.Kernel
import proofs.«175431_j2070174236986_1_alg».proof.Proof.Gen.Kernel.Skeleton
import proofs.«175431_j2070174236986_1_alg».proof.Proof.Gen.Kernel.Launch
import proofs.«175431_j2070174236986_1_alg».proof.Proof.Gen.Kernel.Points
import proofs.«175431_j2070174236986_1_alg».proof.Proof.Gen.Kernel.Frame
import proofs.«175431_j2070174236986_1_alg».proof.Proof.Gen.KernelIdeal
import proofs.«175431_j2070174236986_1_alg».proof.Proof.Gen.KernelIdeal.Skeleton
import proofs.«175431_j2070174236986_1_alg».proof.Proof.Gen.KernelIdeal.Launch
import proofs.«175431_j2070174236986_1_alg».proof.Proof.Gen.KernelIdeal.Points
import proofs.«175431_j2070174236986_1_alg».proof.Proof.Gen.KernelIdeal.Frame
import proofs.«175431_j2070174236986_1_alg».proof.Proof.Gen.ReferenceIdeal
import proofs.«175431_j2070174236986_1_alg».proof.Proof.Gen.Pre_finite_inputs
import proofs.«175431_j2070174236986_1_alg».proof.Proof.Gen.KernelIdeal.Value
import proofs.«175431_j2070174236986_1_alg».proof.Proof.Gen.ReferenceIdeal.Run
import proofs.«175431_j2070174236986_1_alg».proof.Proof.Gen.ReferenceIdeal.Read
import proofs.«175431_j2070174236986_1_alg».proof.Proof.KernelRun
import proofs.«175431_j2070174236986_1_alg».proof.Proof.RefNorm
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame is its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two programs sum the edge features onto the nodes by the same host operations: one function of the edge index and
    the edge features. -/
theorem edgeSum_eq (e : (⟨Cert.ReferenceIdeal.S2x600000, .i32⟩ : BufTy).Contents (Elt Ideal))
    (u : (⟨Cert.ReferenceIdeal.S600000x128, .f32⟩ : BufTy).Contents (Elt Ideal)) :
    Cert.NodeUpdate.Ker.edgeSum e u = Cert.ReferenceIdeal.Read.val_main_v4 (F := Ideal) e u := rfl

/-- From memories that agree on the arguments, the kernel's result array and the reference's both end at the table of
    the arguments. -/
theorem algebraic : Cert.algebraic_KernelIdeal_ReferenceIdeal := by
  intro m ρ m' ρ' _ hagree
  refine ⟨_, Cert.NodeUpdate.Ker.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v43_eq, Cert.NodeUpdate.Ref.ref_is_table, a0, a1, a2, a3, a4, a5, a6, a7, a8, a9, a10,
    ← edgeSum_eq]

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
